-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩
abbrev S16384 : Shape := ⟨1, ![16384]⟩

class Facts : Prop where
  bcast_S_S16384x4096 : S_.BroadcastsInDim S16384x4096 (![] : Fin 0 → Fin S16384x4096.rank)
  natLt_1_32 : 1 < 32
  reducesTo_S16384x4096_S16384_d1 : S16384x4096.ReducesTo [1] S16384
  h_S_ : 0 < S_.numel
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x4096 .f32) (main_arg1 : IVec S16384x4096 32) : IVec S_ 1 :=
  let main_c : IVec S_ 32 := constantI S_ 32 1#32
  let main_v0 : IVec S16384x4096 32 := broadcastInDim S16384x4096 ![] bcast_S_S16384x4096 main_c
  let main_v1 : IVec S16384x4096 1 := cmpi .eq main_arg1 main_v0
  let main_v2 : IVec S16384x4096 32 := (extui 32 · natLt_1_32) main_v1
  let main_c_0 : IVec S_ 32 := constantI S_ 32 0#32
  let main_v3 : IVec S16384 32 := (fun x v => Host.reduce IntOp.addi x v reducesTo_S16384x4096_S16384_d1 h_S_) main_v2 main_c_0
  let main_v4 : FVec F S16384 .f32 := sitofp .f32 main_v3
  let main_v5 : FVec F S16384x4096 .f32 := Host.absf main_arg0
  let main_cst : FVec F S_ .f32 := constant S_ .f32 0x7F800000#32
  let main_v6 : FVec F S16384x4096 .f32 := broadcastInDim S16384x4096 ![] bcast_S_S16384x4096 main_cst
  let main_v7 : IVec S16384x4096 1 := cmpf .olt main_v5 main_v6
  let main_c_1 : IVec S_ 1 := constantI S_ 1 1#1
  let main_v8 : IVec S_ 1 := (fun x v => Host.reduce IntOp.andi x v reducesTo_S16384x4096_S_d0_1 h_S_) main_v7 main_c_1
  let main_cst_2 : FVec F S_ .f32 := constant S_ .f32 0x45800000#32
  let main_v9 : FVec F S16384 .f32 := broadcastInDim S16384 ![] bcast_S_S16384 main_cst_2
  let main_v10 : FVec F S16384 .f32 := subf main_v9 main_v4
  let main_v11 : FVec F S16384 .f32 := mulf main_v4 main_v10
  let main_cst_3 : FVec F S_ .f32 := constant S_ .f32 0x00000000#32
  let main_v12 : FVec F S16384 .f32 := broadcastInDim S16384 ![] bcast_S_S16384 main_cst_3
  let main_v13 : IVec S16384 1 := cmpf .ogt main_v11 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x4096 : Shape := ⟨2, ![16384, 4096]⟩
abbrev S16384x1 : Shape := ⟨2, ![16384, 1]⟩
abbrev S512x4096 : Shape := ⟨2, ![512, 4096]⟩
abbrev S512x1 : Shape := ⟨2, ![512, 1]⟩
abbrev S512 : Shape := ⟨1, ![512]⟩
abbrev S16384 : Shape := ⟨1, ![16384]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x4096, .i32⟩
  | .hbm, ⟨2, _⟩ => ⟨S16384x1, .f32⟩
  | .hbm, ⟨3, _⟩ => ⟨S16384, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .i32⟩
  | .local _ .vmem, ⟨3, _⟩ => ⟨S512x4096, .i32⟩
  | .local _ .vmem, ⟨4, _⟩ => ⟨S512x1, .f32⟩
  | .local _ .vmem, ⟨5, _⟩ => ⟨S512x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  natLt_1_32 : 1 < 32
  inb_S512x1_S512x1_0_0 : ∀ a, (![0, 0] : Fin 2 → Nat) a + S512x1.size a ≤ S512x1.size a
  h_S512x1 : 0 < S512x1.numel
  shapeCasts_S16384x1_S16384 : S16384x1.ShapeCasts S16384
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .i32 = 32 ∨ (Rect.block (s := S16384x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S_ : Shape := ⟨0, ![]⟩
abbrev S16384 : Shape := ⟨1, ![16384]⟩

abbrev nBuf : Space → Nat
  | .hbm => 34
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .i32⟩
  | .hbm, ⟨2, _⟩ => ⟨S_, .i32⟩
  | .hbm, ⟨3, _⟩ => ⟨S16384x4096, .i32⟩
  | .hbm, ⟨4, _⟩ => ⟨S16384x4096, .i1⟩
  | .hbm, ⟨5, _⟩ => ⟨S16384x4096, .f32⟩
  | .hbm, ⟨6, _⟩ => ⟨S_, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384, .f32⟩
  | .hbm, ⟨20, _⟩ => ⟨S16384x4096, .i32⟩
  | .hbm, ⟨21, _⟩ => ⟨S_, .i32⟩
  | .hbm, ⟨22, _⟩ => ⟨S16384, .i32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  reducesTo_S16384x4096_S16384_d1 : S16384x4096.ReducesTo [1] S16384
  h_S_ : 0 < S_.numel
  natLt_1_32 : 1 < 32
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.RowLaw.lean ====
/-
  One row of the loss, as mathematics over the extended reals.

  A row has 4096 entries `x k` with labels `y k`.  With `hit k` the one-bit indicator of `y k = 1`,
    pos  = ∑ over hits of exp (x k),      neg = ∑ over misses of exp (-(x k)),
    n    = the number of hits,            D   = n * (4096 - n),
  the row's value is `pos * neg / D`.  One program computes it with the quotient guarded by the test `0 < D`
  (answering `0` when the test fails); where `0 < D` holds the guard is the identity, and that is the only
  law needed between the two.  The count `n` is met in two spellings: a sum of the indicators read as reals, and an
  integer sum of the indicators read as a real afterwards; a sum of at most 4096 ones does not wrap a 32-bit word, so
  the two are one number.
-/
import Idealize.ShloMosaic.PureOps.Ideal
import Idealize.ShloMosaic.PureOps.Ideal.Laws
import Idealize.ShloMosaic.Lib.IndicatorCount

noncomputable section

namespace Cert.RowLaw

open Idealize.ShloMosaic

/-- The indicator of a label being one. -/
def hit (w : BitVec 32) : BitVec 1 := IntOp.cmpi .eq w 1#32

/-- A one-bit word widened to 32 bits, read as a signed integer and then as an extended real: one or zero. -/
def bitE (b : BitVec 1) : EReal := (((b.setWidth 32).toInt : ℝ) : EReal)

theorem bitE_eq (b : BitVec 1) : bitE b = (((if b = 1#1 then (1 : ℝ) else 0) : ℝ) : EReal) := by
  have hb : b = 0#1 ∨ b = 1#1 := by revert b; decide
  rcases hb with rfl | rfl
  · have : ((0#1 : BitVec 1).setWidth 32).toInt = 0 := by decide
    simp [bitE, this]
  · have : ((1#1 : BitVec 1).setWidth 32).toInt = 1 := by decide
    simp [bitE, this]

/-- A finite sum of reals, read in the extended reals, is the sum of the readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {ι : Type} [Fintype ι]

/-- The integer sum of fewer than 2^31 indicators, read as a real, is the sum of the indicators read as reals:
    both are the number of ones. -/
theorem sitofp_fold (p : ι → BitVec 1) (hc : Fintype.card ι < 2 ^ 31) :
    ((((Finset.univ.fold IntOp.addi (0#32) (fun k => (p k).setWidth 32)).toInt : ℝ)) : EReal) = ∑ k, bitE (p k) := by
  classical
  rw [IndicatorCount.fold_addi_setWidth_eq_card]
  have hsum : (∑ k, bitE (p k)) = (((Finset.univ.filter fun k => p k = 1#1).card : ℝ) : EReal) := by
    simp only [bitE_eq]
    rw [← coe_sum, Finset.sum_boole]
  rw [hsum]
  have hle : (Finset.univ.filter fun k => p k = 1#1).card ≤ Fintype.card ι := Finset.card_le_univ _
  generalize (Finset.univ.filter fun k => p k = 1#1).card = n at hle
  have hn : n < 2 ^ 31 := lt_of_le_of_lt hle hc
  have h1 : (BitVec.ofNat 32 n).toNat = n := by
    rw [BitVec.toNat_ofNat]; exact Nat.mod_eq_of_lt (by omega)
  have hti : (BitVec.ofNat 32 n).toInt = (n : ℤ) := by
    rw [BitVec.toInt_eq_toNat_cond, h1]; split <;> omega
  rw [hti, Int.cast_natCast]

/-! ## The row's value, in the two programs' spellings and in one -/

/-- The f32 pattern of zero, of one and of 4096 as extended reals; only zero is ever evaluated. -/
abbrev z : EReal := Ideal.ofBits .f32 0x00000000#32
abbrev one : EReal := Ideal.ofBits .f32 0x3F800000#32
abbrev width : EReal := Ideal.ofBits .f32 0x45800000#32

/-- The number of hits. -/
def count (y : ι → BitVec 32) : EReal := ∑ k, bitE (hit (y k))
/-- The sum of `exp x` over the hits. -/
def posSum (x : ι → EReal) (y : ι → BitVec 32) : EReal := ∑ k, Scalar.select (hit (y k)) (Ideal.exp (x k)) z
/-- The sum of `exp (-x)` over the misses. -/
def negSum (x : ι → EReal) (y : ι → BitVec 32) : EReal := ∑ k, Scalar.select (hit (y k)) z (Ideal.exp (-(x k)))
/-- The divisor `n * (4096 - n)`. -/
def denom (y : ι → BitVec 32) : EReal := count y * (width - count y)
/-- The row's value: `pos * neg / (n * (4096 - n))`. -/
def quot (x : ι → EReal) (y : ι → BitVec 32) : EReal := Ideal.div (posSum x y * negSum x y) (denom y)
/-- The same with the quotient guarded by `0 < D`: the divisor replaced by one, and the value by zero, where the test fails. -/
def guarded (x : ι → EReal) (y : ι → BitVec 32) : EReal :=
  Scalar.select (Ideal.cmp .ogt (denom y) z)
    (Ideal.div (posSum x y * negSum x y) (Scalar.select (Ideal.cmp .ogt (denom y) z) (denom y) one)) z

/-- Where the divisor is positive the guard does nothing. -/
theorem guarded_eq_quot (x : ι → EReal) (y : ι → BitVec 32) (h : Ideal.cmp .ogt (denom y) z = 1#1) :
    guarded x y = quot x y := by
  unfold guarded quot
  rw [h]
  rfl

/-- On a hit the exponent selected is `x` itself, so the two spellings of the summand over the hits agree. -/
theorem pos_term (b : BitVec 1) (a : EReal) :
    Scalar.select b (Ideal.exp (Scalar.select b a (z - a))) z = Scalar.select b (Ideal.exp a) z := by
  by_cases hb : b = 1#1 <;> simp [Scalar.select, hb]

/-- On a miss the exponent selected is `0 - x = -x`, so the two spellings of the summand over the misses agree. -/
theorem neg_term (b : BitVec 1) (a : EReal) :
    Scalar.select b z (Ideal.exp (Scalar.select b a (z - a))) = Scalar.select b z (Ideal.exp (-a)) := by
  have hz : z - a = -a := by rw [show z = (0 : EReal) from Ideal.ofBits_zero_f32, zero_sub]
  rw [hz]
  by_cases hb : b = 1#1 <;> simp [Scalar.select, hb]

/-- Adding the f32 zero in front changes nothing. -/
theorem z_add (a : EReal) : z + a = a := by
  show Ideal.ofBits .f32 0x00000000#32 + a = a
  rw [Ideal.ofBits_zero_f32, zero_add]

end Cert.RowLaw

end
-- ==== Proof.KernelRow.lean ====
/-
  The kernel's body, row by row.

  At one grid point the body holds a block of 512 rows of entries `x0 (p, q)` and labels `x1 (p, q)`, `q` over the 4096
  columns, and stores one number per row `p`: three lane sums over the row (of `exp x` over the hits, of `exp (0 - x)` over
  the misses, of the indicators read as reals), combined as `pos * neg / D` with `D = n * (4096 - n)`, the quotient guarded by
  the test `0 < D`.  A lane sum from the neutral accumulator, reshaped to a column, read at `(p, 0)` is the plain sum over `q`.
-/
import proofs.«107361_j84061099917860_2_alg».proof.Proof.Gen.KernelIdeal.Skeleton
import proofs.«107361_j84061099917860_2_alg».proof.Proof.RowLaw
import Idealize.ShloMosaic.Lib.ValueIdx
import Idealize.ShloMosaic.Lib.Pipeline.Value
import Idealize.ShloMosaic.PureOps.Ideal.Laws

noncomputable section

namespace Cert.KernelIdeal.KernelRow

open Cert.KernelIdeal Cert.KernelIdeal.Gen Idealize.ShloMosaic Idealize.ShloMosaic.ValueIdx Cert.RowLaw

/-- A lane sum of a 512 x 4096 block from the neutral accumulator, reshaped to a 512 x 1 column. -/
def col (v : FVec Ideal S512x4096 .f32) : FVec Ideal S512x1 .f32 :=
  shapeCast S512x1 (multiReduction .add [1] S512 v 0x00000000#32 reduces_S512x4096_S512 (.inl rfl) rfl) shapeCasts_S512_S512x1

/-- Read at row `p` it is the sum of the row. -/
theorem col_apply (v : FVec Ideal S512x4096 .f32) (p : Fin 512) : col v (ix2 p 0) = ∑ q : Fin 4096, v (ix2 p q) := by
  unfold col
  rw [shapeCast_apply _ shapeCasts_S512_S512x1 (ix2 p 0) (ix1 p) (by
    rw [Shape.rowMajor_val_one, Shape.rowMajor_val_two]
    show p.val = p.val * 1 + 0
    omega)]
  refine (Ideal.multiReduction_add_single v 0x00000000#32 reduces_S512x4096_S512 (.inl rfl) rfl (ix1 p)).trans ?_
  refine Finset.sum_congr rfl fun q _ => congrArg v ?_
  funext a; apply Fin.ext
  match a with | ⟨0, _⟩ => rfl | ⟨1, _⟩ => rfl

/-- The indicators of the block's labels being one. -/
def hits (x1 : Vec Ideal S512x4096 .i32) : IVec S512x4096 1 := cmpi .eq x1 (broadcast S512x4096 1#32)
/-- `exp` of `x` on a hit and of `0 - x` on a miss. -/
def expo (x0 : Vec Ideal S512x4096 .f32) (x1 : Vec Ideal S512x4096 .i32) : FVec Ideal S512x4096 .f32 :=
  exp (select (hits x1) x0 (subf (broadcast S512x4096 (Scalar.ofBits .f32 0x00000000#32)) x0))
/-- The three summands. -/
def posV (x0 : Vec Ideal S512x4096 .f32) (x1 : Vec Ideal S512x4096 .i32) : FVec Ideal S512x4096 .f32 :=
  select (hits x1) (expo x0 x1) (broadcast S512x4096 (Scalar.ofBits .f32 0x00000000#32))
def negV (x0 : Vec Ideal S512x4096 .f32) (x1 : Vec Ideal S512x4096 .i32) : FVec Ideal S512x4096 .f32 :=
  select (hits x1) (broadcast S512x4096 (Scalar.ofBits .f32 0x00000000#32)) (expo x0 x1)
def cntV (x1 : Vec Ideal S512x4096 .i32) : FVec Ideal S512x4096 .f32 := sitofp .f32 (extui 32 (hits x1) natLt_1_32)
/-- The divisor column `n * (4096 - n)`. -/
def denV (x1 : Vec Ideal S512x4096 .i32) : FVec Ideal S512x1 .f32 :=
  mulf (col (cntV x1)) (subf (broadcast S512x1 (Scalar.ofBits .f32 0x45800000#32)) (col (cntV x1)))

/-- The stored value is the guarded quotient of the three columns. -/
theorem pay_eq (x0 : Vec Ideal S512x4096 .f32) (x1 : Vec Ideal S512x4096 .i32) :
    k0_pay1 (F := Ideal) x0 x1
      = select (cmpf .ogt (denV x1) (broadcast S512x1 (Scalar.ofBits .f32 0x00000000#32)))
          (divf (mulf (col (posV x0 x1)) (col (negV x0 x1)))
            (select (cmpf .ogt (denV x1) (broadcast S512x1 (Scalar.ofBits .f32 0x00000000#32))) (denV x1) (broadcast S512x1 (Scalar.ofBits .f32 0x3F800000#32))))
          (broadcast S512x1 (Scalar.ofBits .f32 0x00000000#32)) := rfl

theorem pos_row (x0 : Vec Ideal S512x4096 .f32) (x1 : Vec Ideal S512x4096 .i32) (p : Fin 512) :
    col (posV x0 x1) (ix2 p 0) = posSum (fun q : Fin 4096 => x0 (ix2 p q)) (fun q => x1 (ix2 p q)) := by
  rw [col_apply]
  exact Finset.sum_congr rfl fun q _ => pos_term (hit (x1 (ix2 p q))) (x0 (ix2 p q))

theorem neg_row (x0 : Vec Ideal S512x4096 .f32) (x1 : Vec Ideal S512x4096 .i32) (p : Fin 512) :
    col (negV x0 x1) (ix2 p 0) = negSum (fun q : Fin 4096 => x0 (ix2 p q)) (fun q => x1 (ix2 p q)) := by
  rw [col_apply]
  exact Finset.sum_congr rfl fun q _ => neg_term (hit (x1 (ix2 p q))) (x0 (ix2 p q))

theorem cnt_row (x1 : Vec Ideal S512x4096 .i32) (p : Fin 512) :
    col (cntV x1) (ix2 p 0) = count (fun q : Fin 4096 => x1 (ix2 p q)) := by
  rw [col_apply]; rfl

theorem den_row (x1 : Vec Ideal S512x4096 .i32) (p : Fin 512) :
    denV x1 (ix2 p 0) = denom (fun q : Fin 4096 => x1 (ix2 p q)) := by
  show col (cntV x1) (ix2 p 0) * (width - col (cntV x1) (ix2 p 0)) = _
  rw [cnt_row]; rfl

/-- ROW `p` OF THE BLOCK THE BODY STORES is the row's guarded quotient. -/
theorem pay_row (x0 : Vec Ideal S512x4096 .f32) (x1 : Vec Ideal S512x4096 .i32) (p : Fin 512) :
    k0_pay1 (F := Ideal) x0 x1 (ix2 p 0) = guarded (fun q : Fin 4096 => x0 (ix2 p q)) (fun q => x1 (ix2 p q)) := by
  rw [pay_eq]
  show Scalar.select (Ideal.cmp .ogt (denV x1 (ix2 p 0)) z)
      (Ideal.div (col (posV x0 x1) (ix2 p 0) * col (negV x0 x1) (ix2 p 0))
        (Scalar.select (Ideal.cmp .ogt (denV x1 (ix2 p 0)) z) (denV x1 (ix2 p 0)) one)) z = _
  rw [den_row, pos_row, neg_row]; rfl

end Cert.KernelIdeal.KernelRow

end
-- ==== Proof.KernelArray.lean ====
/-
  From the blocks to the whole column, and through the lines after the region.

  The grid has 32 points; point `t` holds rows `512 t … 512 t + 511` of both arguments (all 4096 columns) and writes back rows
  `512 t … 512 t + 511` of the 16384 x 1 result.  So the result ends as ONE function of the argument arrays: at `(r, 0)` the
  guarded quotient of row `r`.  The blocks cover every row (row `r` lies in block `r / 512`).  After the region the program
  reshapes the column to a vector, sums it from the f32 zero and divides by 16384.
-/
import proofs.«107361_j84061099917860_2_alg».proof.Proof.Gen.KernelIdeal.Frame
import proofs.«107361_j84061099917860_2_alg».proof.Proof.KernelRow
import Idealize.ShloMosaic.Lib.Pipeline.Value
import Idealize.ShloMosaic.Lib.StableHlo.Run

noncomputable section

namespace Cert.KernelIdeal.KernelArray

open Cert.KernelIdeal Cert.KernelIdeal.Gen Idealize.ShloMosaic Idealize.ShloMosaic.TcCoe Idealize.SL.Sem
open Idealize.ShloMosaic.ValueIdx Cert.RowLaw Cert.KernelIdeal.KernelRow

variable (m : (ℓ : Loc nD τ sig) → Buf (Elt Ideal) ℓ) (ρ : Dev nD → PrngReg)

/-- Row `r` of a 16384 x 4096 array, entry `q`. -/
abbrev rowOf (i : S16384x1.Idx) (q : Fin 4096) : S16384x4096.Idx := ix2 (n0 := 16384) ⟨(i 0).val, idx2_lt0 i⟩ q

/-- The result column as one function of the argument arrays: at `(r, 0)` the guarded quotient of row `r`. -/
def column (a0 : S16384x4096.Idx → EReal) (a1 : S16384x4096.Idx → BitVec 32) : S16384x1.Idx → EReal :=
  fun i => guarded (fun q : Fin 4096 => a0 (rowOf i q)) (fun q => a1 (rowOf i q))

theorem hz : (![0, 0] : Fin 2 → Nat) = fun _ => 0 := funext fun a => by fin_cases a <;> rfl

/-- The printed index maps, decided once over the grid: every window's block row is the point's number, its block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every index of a 512 x 1 block is `(p, 0)`. -/
theorem eq_col (j : S512x1.Idx) : ∃ p : Fin 512, j = ix2 p 0 :=
  ⟨⟨(j 0).val, idx2_lt0 j⟩, funext fun a => Fin.ext (by
    match a with
    | ⟨0, _⟩ => rfl
    | ⟨1, _⟩ => show (j 1).val = 0; have := idx2_lt1 j; omega)⟩

/-- Entry `(p, q)` of the first argument's block at point `t` is entry `(512 t + p, q)` of the argument; stated with the row
    given by any index `i` of the result column whose row is `512 t + p`. -/
theorem blk0_apply (c : Dev nD) (t : Fin cfg0.N) (p : Fin 512) (q : Fin 4096) (i : S16384x1.Idx) (hi : (i 0).val = t.val * 512 + p.val) :
    (iblk m c 0 t : Vec Ideal S512x4096 .f32) (ix2 p q) = V m c main_arg0 (rowOf i q) := by
  obtain ⟨e0, e1, -, -, -, -⟩ := idx_facts t
  unfold iblk
  rw [View.read_apply]
  show V m c main_arg0 _ = V m c main_arg0 _
  congr 1
  funext a
  apply Fin.ext
  match a with
  | ⟨0, _⟩ => show win0_0.index t 0 * 512 + 1 * p.val = (i 0).val; rw [e0, hi]; omega
  | ⟨1, _⟩ => show win0_0.index t 1 * 4096 + 1 * q.val = q.val; rw [e1]; omega

/-- The same for the labels. -/
theorem blk1_apply (c : Dev nD) (t : Fin cfg0.N) (p : Fin 512) (q : Fin 4096) (i : S16384x1.Idx) (hi : (i 0).val = t.val * 512 + p.val) :
    (iblk m c 1 t : Vec Ideal S512x4096 .i32) (ix2 p q) = V m c main_arg1 (rowOf i q) := by
  obtain ⟨-, -, e0, e1, -, -⟩ := idx_facts t
  unfold iblk
  rw [View.read_apply]
  show V m c main_arg1 _ = V m c main_arg1 _
  congr 1
  funext a
  apply Fin.ext
  match a with
  | ⟨0, _⟩ => show win0_1.index t 0 * 512 + 1 * p.val = (i 0).val; rw [e0, hi]; omega
  | ⟨1, _⟩ => show win0_1.index t 1 * 4096 + 1 * q.val = q.val; rw [e1]; omega

/-- WHAT POINT `t` WRITES BACK is block `t` of the column of the argument arrays as the region finds them. -/
theorem flushed_eq (c : Dev nD) (t : Fin cfg0.N) :
    (dats m 0 c).flushed 2 t = ((cfg0.win 2).blk t).view.read (Elt Ideal) (column (V m c main_arg0) (V m c main_arg1)) := by
  show (cfg0.win 2).cut (grid0.coords t) ((dats m 0 c).after 2 t) = _
  rw [after0_2]
  unfold out0_2
  rw [View.canon_unit_zero hz]
  simp only [View.ld_unit_zero (S := S512x4096) hz]
  funext j
  obtain ⟨p, rfl⟩ := eq_col j
  obtain ⟨-, -, -, -, e0, e1⟩ := idx_facts t
  rw [View.read_apply, cast_eq]
  have hcut : (win0 2).cut (grid0.coords t) (k0_pay1 (F := Ideal) (iblk m c 0 t) (iblk m c 1 t)) (ix2 p 0) = k0_pay1 (F := Ideal) (iblk m c 0 t) (iblk m c 1 t) (ix2 p 0) := rfl
  refine hcut.trans ((pay_row (iblk m c 0 t) (iblk m c 1 t) p).trans ?_)
  have hi : ((((View.whole main_v0).slice ((win0 2).rect t)).emb (ix2 p 0) : S16384x1.Idx) 0).val = t.val * 512 + p.val := by
    show win0_2.index t 0 * 512 + 1 * p.val = _
    rw [e0]; omega
  generalize ((View.whole main_v0).slice ((win0 2).rect t)).emb (ix2 p 0) = E at hi ⊢
  unfold column
  rw [show (fun q : Fin 4096 => (iblk m c 0 t : Vec Ideal S512x4096 .f32) (ix2 p q)) = fun q => V m c main_arg0 (rowOf E q) from funext fun q => blk0_apply m c t p q E hi,
    show (fun q : Fin 4096 => (iblk m c 1 t : Vec Ideal S512x4096 .i32) (ix2 p q)) = fun q => V m c main_arg1 (rowOf E q) from funext fun q => blk1_apply m c t p q E hi]

/-- An index of the column is in point `t`'s block iff each coordinate is in the block's range on its axis. -/
theorem mem_blk (t : Fin cfg0.N) (i : S16384x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0).slice (win0_2.rect t)).set ↔ _
  rw [View.set_slice_whole, Rect.mem_set_unit]
  exact Iff.rfl

/-- Row `r` lies in the block of point `r / 512`. -/
theorem cover (i : S16384x1.Idx) : ∃ t : Fin cfg0.N, (cfg0.win 2).flush t = true ∧ i ∈ ((cfg0.win 2).blk t).view.set := by
  have hN : cfg0.N = 32 := N_0
  have hi0 : (i 0).val < 16384 := idx2_lt0 i
  have hi1 : (i 1).val < 1 := idx2_lt1 i
  refine ⟨⟨(i 0).val / 512, by rw [hN]; omega⟩, flush0_2 _, ?_⟩
  rw [mem_blk]
  obtain ⟨-, -, -, -, e0, e1⟩ := idx_facts ⟨(i 0).val / 512, by rw [hN]; omega⟩
  intro a
  match a with
  | ⟨0, _⟩ =>
    show win0_2.index _ 0 * 512 ≤ (i 0).val ∧ (i 0).val < win0_2.index _ 0 * 512 + 512
    rw [e0]; show (i 0).val / 512 * 512 ≤ (i 0).val ∧ (i 0).val < (i 0).val / 512 * 512 + 512; omega
  | ⟨1, _⟩ =>
    show win0_2.index _ 1 * 1 ≤ (i 1).val ∧ (i 1).val < win0_2.index _ 1 * 1 + 1
    rw [e1]; omega

/-- THE COLUMN after the run. -/
theorem final (c : Dev nD) : (dats m 0 c).arrAt 2 cfg0.N = column (V m c main_arg0) (V m c main_arg1) :=
  (dats m 0 c).arrAt_eq_of_cover 2 (column (V m c main_arg0) (V m c main_arg1)) (fun t _ => flushed_eq m c t) cover

end Cert.KernelIdeal.KernelArray

end
-- ==== Proof.Mean.lean ====
/-
  The last step of both programs: the mean of the 16384 row values, as a float sum from the f32 zero divided by 16384.
  Both programs apply it to their vector of row values, so it is never opened: equal vectors have equal means.
-/
import Idealize.ShloMosaic.PureOps.Ideal

noncomputable section

namespace Cert.Mean

open Idealize.ShloMosaic

abbrev Rows : Shape := ⟨1, ![16384]⟩
abbrev Scal : Shape := ⟨0, ![]⟩

/-- The sum of the rows from the f32 zero, divided by the f32 constant 16384. -/
def mean (h : Rows.ReducesTo [0] Scal) (h0 : 0 < Scal.numel) (rows : FVec Ideal Rows .f32) : FVec Ideal Scal .f32 :=
  Host.divf (Host.reduceAdd rows (constant (F := Ideal) Scal .f32 0x00000000#32) h h0) (constant (F := Ideal) Scal .f32 0x46800000#32)

end Cert.Mean

end
-- ==== Proof.KernelRun.lean ====
/-
  The kernel program's run, read: after the region its result column is the guarded quotient row by row; the lines after
  the region reshape the column to the vector of its rows and take the mean; the arguments end as they were.
-/
import proofs.«107361_j84061099917860_2_alg».proof.Proof.KernelArray
import proofs.«107361_j84061099917860_2_alg».proof.Proof.Mean

noncomputable section

namespace Cert.KernelIdeal.KernelRun

open Cert.KernelIdeal Cert.KernelIdeal.Gen Idealize.ShloMosaic Idealize.ShloMosaic.TcCoe Idealize.SL.Sem Idealize.ShloMosaic.StableHlo
open Cert.KernelIdeal.KernelArray Cert.Mean

variable (m : (ℓ : Loc nD τ sig) → Buf (Elt Ideal) ℓ) (ρ : Dev nD → PrngReg)

/-- The vector of the column's rows. -/
def rows (a0 : S16384x4096.Idx → EReal) (a1 : S16384x4096.Idx → BitVec 32) : FVec Ideal S16384 .f32 :=
  shapeCast S16384 (column a0 a1) shapeCasts_S16384x1_S16384

/-- The result buffer is one of the buffers the lines after the region leave. -/
theorem result_mem : main_v3 ∈ Pipeline.restRefs sig (cfgs 0).spec :=
  Pipeline.mem_restRefs_of main_v3 rfl (by decide)

/-- The lines after the region, run on the column the region leaves, give the mean of its rows. -/
theorem tail_eq (c : Dev nD) :
    Pipeline.afterTail₀ cfgs (dats m) 0 (V0 m) [hostOps1] c main_v3
      = mean reducesTo_S16384_S_d0 h_S_ (rows (m ((c : Thread nD τ).loc main_arg0)) (m ((c : Thread nD τ).loc main_arg1))) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v0)
      = column (V m c main_arg0) (V m c main_arg1) :=
    (Pipeline.withArrays_arr spec0 launch0.win.arr_inj c _ _ 2).trans (final m c)
  rw [hw]
  rfl

/-- THE RUN: every weakly fair execution terminates with the result at the mean of the guarded row quotients of the
    arguments, and the arguments unchanged. -/
theorem run : θ_run defs (onTc (τ := τ) (main (F := Ideal))) ⟨m, fun _ => 0, ρ⟩ fun r => ∀ c : Dev nD,
      r.2.mem ((c : Thread nD τ).loc main_v3)
        = mean reducesTo_S16384_S_d0 h_S_ (rows (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v3 result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.RefRows.lean ====
/-
  The reference, row by row.

  Before its final mean the reference holds one number per row `i`: the quotient `pos * neg / (n * (4096 - n))` of the
  row's entries `x (i, k)` and labels `y (i, k)`, `k` over the 4096 columns.  Its two float sums start from the f32 zero;
  its count is an integer sum of the widened indicators converted to a real afterwards, which is the number of hits because
  4096 ones do not wrap a 32-bit word.
-/
import proofs.«107361_j84061099917860_2_alg».proof.Proof.Gen.ReferenceIdeal.Read
import proofs.«107361_j84061099917860_2_alg».proof.Proof.RowLaw
import Idealize.ShloMosaic.PureOps.Reduce

noncomputable section

namespace Cert.ReferenceIdeal.RefRows

open Cert.ReferenceIdeal Cert.ReferenceIdeal.Gen Cert.ReferenceIdeal.Read Idealize.ShloMosaic Cert.RowLaw

/-- The comparison with the broadcast constant one is the indicator of the label being one. -/
theorem hit_eq (x1 : (⟨S16384x4096, .i32⟩ : BufTy).Contents (Elt Ideal)) (j : S16384x4096.Idx) :
    val_main_v1 (F := Ideal) x1 j = hit (x1 j) := by
  rw [val_main_v1_apply, val_main_v0_apply]; rfl

/-- The broadcast zeros the two selections fill with. -/
theorem fill0_eq (j : S16384x4096.Idx) : val_main_call0_v1 (F := Ideal) j = z := by
  rw [val_main_call0_v1_apply]; rfl
theorem fill1_eq (j : S16384x4096.Idx) : val_main_call1_v1 (F := Ideal) j = z := by
  rw [val_main_call1_v1_apply]; rfl

/-- The sum over the hits of row `i`. -/
theorem pos_eq (x0 : (⟨S16384x4096, .f32⟩ : BufTy).Contents (Elt Ideal)) (x1 : (⟨S16384x4096, .i32⟩ : BufTy).Contents (Elt Ideal)) (i : S16384.Idx) :
    val_main_v4 (F := Ideal) x0 x1 i = posSum (fun k => x0 (idx_main_v4 i k)) (fun k => x1 (idx_main_v4 i k)) := by
  rw [val_main_v4_apply]
  refine (z_add _).trans (Finset.sum_congr rfl fun k _ => ?_)
  rw [val_main_v3_apply, hit_eq, fill0_eq]; rfl

/-- The sum over the misses of row `i`. -/
theorem neg_eq (x0 : (⟨S16384x4096, .f32⟩ : BufTy).Contents (Elt Ideal)) (x1 : (⟨S16384x4096, .i32⟩ : BufTy).Contents (Elt Ideal)) (i : S16384.Idx) :
    val_main_v8 (F := Ideal) x0 x1 i = negSum (fun k => x0 (idx_main_v4 i k)) (fun k => x1 (idx_main_v4 i k)) := by
  rw [val_main_v8_apply]
  refine (z_add _).trans (Finset.sum_congr rfl fun k _ => ?_)
  rw [val_main_v7_apply, hit_eq, fill1_eq]; rfl

/-- The count of row `i`: the integer sum of the widened indicators, read as a real, is the number of hits. -/
theorem count_eq (x1 : (⟨S16384x4096, .i32⟩ : BufTy).Contents (Elt Ideal)) (i : S16384.Idx) :
    val_main_v11 (F := Ideal) x1 i = count (fun k => x1 (idx_main_v4 i k)) := by
  have h : S16384x4096.Reduces [1] S16384 := by decide
  have hl : ∀ k : Fin 4096, h.lift i k = idx_main_v4 i k := fun k =>
    funext fun a => Fin.ext (by match a with | ⟨0, _⟩ => rfl | ⟨1, _⟩ => rfl)
  rw [val_main_v11_apply]
  unfold val_main_v10
  rw [Host.reduce_eq_fold_single IntOp.addi _ _ reducesTo_S16384x4096_S16384_d1 h h_S_ i]
  have e : (val_main_v9 (F := Ideal) x1 ∘ h.lift i) = fun k : Fin 4096 => (hit (x1 (idx_main_v4 i k))).setWidth 32 :=
    funext fun k => by
      show (val_main_v1 (F := Ideal) x1 (h.lift i k)).setWidth 32 = _
      rw [hit_eq, hl k]
  rw [e]
  exact sitofp_fold (fun k : Fin 4096 => hit (x1 (idx_main_v4 i k))) (by simp)

/-- The constant 4096 broadcast along the rows. -/
theorem width_eq (i : S16384.Idx) : val_main_v13 (F := Ideal) i = width := by
  rw [val_main_v13_apply]; rfl

/-- The divisor of row `i`. -/
theorem den_eq (x1 : (⟨S16384x4096, .i32⟩ : BufTy).Contents (Elt Ideal)) (i : S16384.Idx) :
    val_main_v15 (F := Ideal) x1 i = denom (fun k => x1 (idx_main_v4 i k)) := by
  rw [val_main_v15_apply, val_main_v14_apply, count_eq, width_eq]
  rfl

/-- ROW `i` OF THE REFERENCE before the mean is the row's quotient. -/
theorem row_eq (x0 : (⟨S16384x4096, .f32⟩ : BufTy).Contents (Elt Ideal)) (x1 : (⟨S16384x4096, .i32⟩ : BufTy).Contents (Elt Ideal)) (i : S16384.Idx) :
    val_main_v16 (F := Ideal) x0 x1 i = quot (fun k => x0 (idx_main_v4 i k)) (fun k => x1 (idx_main_v4 i k)) := by
  rw [val_main_v16_apply, val_main_v12_apply, val_main_v15_apply, val_main_v14_apply, pos_eq, neg_eq, count_eq, width_eq]
  rfl

end Cert.ReferenceIdeal.RefRows

end
-- ==== Proof.PreRows.lean ====
/-
  What the precondition says of a row.

  The precondition is the conjunction of "every entry of x is finite" and "in every row the divisor `n * (4096 - n)` is
  positive", the second spelt with the reference's own operations: the integer count of the labels equal to one, read as a
  real, times 4096 minus it, compared with zero, and `all` over the rows.  Only the second conjunct is used: it is, row by
  row, the test that makes the guarded quotient the plain one.
-/
import proofs.«107361_j84061099917860_2_alg».proof.Pre_finite_inputs
import proofs.«107361_j84061099917860_2_alg».proof.Proof.Gen.Pre_finite_inputs
import proofs.«107361_j84061099917860_2_alg».proof.Proof.RefRows
import Idealize.ShloMosaic.Lib.ReduceAll
import Idealize.ShloMosaic.Lib.ValueIdx

noncomputable section

namespace Cert.PreRows

open Idealize.ShloMosaic Cert.RowLaw Cert.ReferenceIdeal Cert.ReferenceIdeal.Gen

instance : Subsingleton (S_.Idx) := ⟨fun a b => funext fun d => d.elim0⟩

/-- Under the precondition every row's divisor passes the test `0 < D`. -/
theorem denom_pos (a0 : FVec Ideal S16384x4096 .f32) (a1 : IVec S16384x4096 32)
    (h : Cert.Pre_finite_inputs.fn (F := Ideal) a0 a1 = fun _ => 1#1) (i : S16384.Idx) :
    Ideal.cmp .ogt (denom (fun k : Fin 4096 => a1 (Read.idx_main_v4 i k))) z = 1#1 := by
  have h0 := congrFun h ValueIdx.ix0
  dsimp only [Cert.Pre_finite_inputs.fn] at h0
  have h1 := (IntOp.andi_eq_one.1 h0).2
  have h2 := Host.reduce_andi_all _ _ _ _ _ h1 i
  rw [← RefRows.den_eq a1 i]
  have hz : broadcastInDim S16384 ![] Cert.Pre_finite_inputs.Facts.bcast_S_S16384 (constant (F := Ideal) S_ .f32 0x00000000#32) i = z :=
    broadcastInDim_apply _ _ _ i (fun a => a.elim0) (fun a => a.elim0)
  refine Eq.trans ?_ h2
  show Ideal.cmp .ogt (Read.val_main_v15 (F := Ideal) a1 i) z = Ideal.cmp .ogt (Read.val_main_v15 (F := Ideal) a1 i) _
  rw [hz]

end Cert.PreRows

end
-- ==== Proof.Bridge.lean ====
/-
  The two programs' vectors of row values are one vector under the precondition.

  The reference's row `i` is the plain quotient `pos * neg / D`, the kernel's the guarded one; the precondition says
  `0 < D` for every row, where the guard is the identity.  The kernel's vector is its result column reshaped, so its entry
  `i` is the column's entry `(i, 0)`.
-/
import proofs.«107361_j84061099917860_2_alg».proof.Proof.KernelRun
import proofs.«107361_j84061099917860_2_alg».proof.Proof.RefRows
import proofs.«107361_j84061099917860_2_alg».proof.Proof.PreRows

noncomputable section

namespace Cert.Bridge

open Idealize.ShloMosaic Idealize.ShloMosaic.ValueIdx Cert.RowLaw

/-- Row `i` of the vector is row `(i, 0)` of the column. -/
abbrev colIx (i : Cert.ReferenceIdeal.S16384.Idx) : Cert.KernelIdeal.S16384x1.Idx :=
  ix2 (n0 := 16384) (n1 := 1) ⟨(i 0).val, (i 0).isLt⟩ 0

/-- Entry `k` of row `i`, in the two programs' spellings of the index. -/
theorem idx_eq (i : Cert.ReferenceIdeal.S16384.Idx) (k : Fin 4096) :
    Cert.ReferenceIdeal.Read.idx_main_v4 i k = Cert.KernelIdeal.KernelArray.rowOf (colIx i) k :=
  funext fun a => Fin.ext (by match a with | ⟨0, _⟩ => rfl | ⟨1, _⟩ => rfl)

/-- Under the precondition the reference's row values are the kernel's. -/
theorem rows_eq (x0 : FVec Ideal Cert.ReferenceIdeal.S16384x4096 .f32) (x1 : IVec Cert.ReferenceIdeal.S16384x4096 32)
    (hpre : Cert.Pre_finite_inputs.fn (F := Ideal) x0 x1 = fun _ => 1#1) :
    Cert.ReferenceIdeal.Read.val_main_v16 (F := Ideal) x0 x1 = Cert.KernelIdeal.KernelRun.rows x0 x1 := by
  funext i
  rw [Cert.ReferenceIdeal.RefRows.row_eq]
  unfold Cert.KernelIdeal.KernelRun.rows
  rw [shapeCast_apply _ _ i (colIx i) (by
    rw [Shape.rowMajor_val_one, Shape.rowMajor_val_two]
    show (i 0).val * 1 + 0 = (i 0).val
    omega)]
  unfold Cert.KernelIdeal.KernelArray.column
  rw [← guarded_eq_quot _ _ (Cert.PreRows.denom_pos x0 x1 hpre i)]
  simp only [idx_eq]

end Cert.Bridge

end
-- ==== Proof.lean ====
/-
  The certificate of the row-wise ranking loss: for each of the 16384 rows, with `pos` the sum of `exp x` over the entries
  labelled one, `neg` the sum of `exp (-x)` over the others and `n` the number of ones, the value `pos * neg / (n * (4096 - n))`;
  the result is the mean over the rows.

  The kernel computes the three sums per row in blocks of 512 rows and guards the quotient by the test `0 < n * (4096 - n)`;
  the reference divides outright.  The precondition keeps every row's divisor positive (outside it the reference's quotient is
  `0 / 0`), and there the guard is the identity: the two vectors of row values agree entry by entry (Proof/Bridge.lean), and both
  programs end by the same mean of that vector.  The three frames are the programs' runs with the results dropped; the
  idealization rewrote nothing, so there is nothing to preserve.
-/
import proofs.«107361_j84061099917860_2_alg».proof.Defs
import proofs.«107361_j84061099917860_2_alg».proof.Proof.Gen.Kernel
import proofs.«107361_j84061099917860_2_alg».proof.Proof.Gen.Kernel.Skeleton
import proofs.«107361_j84061099917860_2_alg».proof.Proof.Gen.Kernel.Launch
import proofs.«107361_j84061099917860_2_alg».proof.Proof.Gen.Kernel.Points
import proofs.«107361_j84061099917860_2_alg».proof.Proof.Gen.Kernel.Frame
import proofs.«107361_j84061099917860_2_alg».proof.Proof.Gen.KernelIdeal
import proofs.«107361_j84061099917860_2_alg».proof.Proof.Gen.KernelIdeal.Skeleton
import proofs.«107361_j84061099917860_2_alg».proof.Proof.Gen.KernelIdeal.Launch
import proofs.«107361_j84061099917860_2_alg».proof.Proof.Gen.KernelIdeal.Points
import proofs.«107361_j84061099917860_2_alg».proof.Proof.Gen.KernelIdeal.Frame
import proofs.«107361_j84061099917860_2_alg».proof.Proof.Gen.ReferenceIdeal
import proofs.«107361_j84061099917860_2_alg».proof.Proof.Gen.Pre_finite_inputs
import proofs.«107361_j84061099917860_2_alg».proof.Proof.Gen.ReferenceIdeal.Run
import proofs.«107361_j84061099917860_2_alg».proof.Proof.Gen.ReferenceIdeal.Read
import proofs.«107361_j84061099917860_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the mean of one vector of row values: the kernel's guarded quotients, which under the
    precondition are the reference's plain ones. -/
theorem algebraic : Cert.algebraic_KernelIdeal_ReferenceIdeal := by
  intro m ρ m' ρ' hpre hagree
  refine ⟨fun c => Cert.Mean.mean Cert.KernelIdeal.Gen.reducesTo_S16384_S_d0 Cert.KernelIdeal.Gen.h_S_
      (Cert.KernelIdeal.KernelRun.rows (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2]
  show Cert.Mean.mean _ _ (Cert.ReferenceIdeal.Read.val_main_v16 (F := Ideal) _ _) = _
  rw [Cert.Bridge.rows_eq _ _ (hpre c)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
